-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_total_elems" .f32 0x3227C5AC#32 ((1 / 102400000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S1024x128 .f32) (main_arg1 : IVec S1024 32) (main_arg2 : FVec F S100000x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S1024x128 : Shape := ⟨2, ![1024, 128]⟩
abbrev S1024 : Shape := ⟨1, ![1024]⟩
abbrev S100000x128 : Shape := ⟨2, ![100000, 128]⟩
abbrev S1024x1 : Shape := ⟨2, ![1024, 1]⟩
abbrev S1x1 : Shape := ⟨2, ![1, 1]⟩
abbrev S1000x128 : Shape := ⟨2, ![1000, 128]⟩
abbrev S1000 : Shape := ⟨1, ![1000]⟩
abbrev S1000x1 : Shape := ⟨2, ![1000, 1]⟩
abbrev S1x1000 : Shape := ⟨2, ![1, 1000]⟩
abbrev S128x1000 : Shape := ⟨2, ![128, 1000]⟩
abbrev S1024x1000 : Shape := ⟨2, ![1024, 1000]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x1, .i32⟩
  | .hbm, ⟨4, _⟩ => ⟨S1x1, .f32⟩
  | .hbm, ⟨5, _⟩ => ⟨S_, .f32⟩
  | .local _ .vmem, ⟨0, _⟩ => ⟨S1024x128, .f32⟩
  | .local _ .vmem, ⟨1, _⟩ => ⟨S1024x1, .i32⟩
  | .local _ .vmem, ⟨2, _⟩ => ⟨S1000x128, .f32⟩
  | .local _ .vmem, ⟨3, _⟩ => ⟨S1000x128, .f32⟩
  | .local _ .vmem, ⟨4, _⟩ => ⟨S1x1, .f32⟩
  | .local _ .vmem, ⟨5, _⟩ => ⟨S1x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v42 : BitVec 1 := Scalar.cmpi .eq arg0 c99_i32
  let v43 : BitVec 32 := Scalar.extui v42
  let c0_i32_15 : BitVec 32 := 0#32
  let v44 : BitVec 1 := Scalar.cmpi .ne v43 c0_i32_15
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  inb_S1000x128_S1000x128_0_0 : ∀ a, (![0, 0] : Fin 2 → Nat) a + S1000x128.size a ≤ S1000x128.size a
  h_S1000x128 : 0 < S1000x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x128_S1024 : S1024x128.Reduces [1] S1024
  reduces_S1000x128_S1000 : S1000x128.Reduces [1] S1000
  shapeCasts_S1000_S1000x1 : S1000.ShapeCasts S1000x1
  transposes_S1000x1_p1_0_S1x1000 : S1000x1.Transposes [1, 0] S1x1000
  bitsLt_bf16_f32 : FTy.bits .bf16 < FTy.bits .f32
  transposes_S1000x128_p1_0_S128x1000 : S1000x128.Transposes [1, 0] S128x1000
  broadcasts_S1024x1_S1024x1000 : S1024x1.Broadcasts S1024x1000
  broadcasts_S1x1000_S1024x1000 : S1x1000.Broadcasts S1024x1000
  iota_S1024x1000_d1_w32 : S1024x1000.Iotas .tc 32 [1]
  natLt_1_32 : 1 < 32
  reduces_S1024x1000_S1024 : S1024x1000.Reduces [1] S1024
  reduces_S1024x1_S1 : S1024x1.Reduces [0] S1
  shapeCasts_S1_S1x1 : S1.ShapeCasts S1x1
  shapeCasts_S1x1_S_ : S1x1.ShapeCasts S_
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .i32 = 32 ∨ (Rect.block (s := S1024x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S128x100000 : Shape := ⟨2, ![128, 100000]⟩

abbrev nBuf : Space → Nat
  | .hbm => 32
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x128, .f32⟩
  | .hbm, ⟨8, _⟩ => ⟨S_, .f32⟩
  | .hbm, ⟨9, _⟩ => ⟨S100000, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S128x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S100000, .i32⟩
  | .hbm, ⟨21, _⟩ => ⟨S1024x1, .i32⟩
  | .hbm, ⟨22, _⟩ => ⟨S1x100000, .i32⟩
  | .hbm, ⟨23, _⟩ => ⟨S1024x100000, .i32⟩
  | .hbm, ⟨24, _⟩ => ⟨S1024x100000, .i32⟩
  | .hbm, ⟨25, _⟩ => ⟨S1024x100000, .i1⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  reducesTo_S100000x128_S100000_d1 : S100000x128.ReducesTo [1] S100000
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  transposes_S100000x128_S128x100000_1_0 : S100000x128.Transposes [1, 0] S128x100000
  bcast_S_S1024x100000 : S_.BroadcastsInDim S1024x100000 (![] : Fin 0 → Fin S1024x100000.rank)
  reducesTo_S1024x100000_S_d0_1 : S1024x100000.ReducesTo [0, 1] S_
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.Cells.lean ====
/-
  What one grid step leaves behind, as pure terms of the blocks it loads.

  The body keeps one running total in a 1×1 scratch cell that lives across the hundred steps. At the first step
  it stores zero there and reads it back; at every step it loads the sample block, the label column and the
  step's tile of centres, adds the tile's masked sum to the cell and stores the cell again; at the last step it
  reads the cell once more and stores the cell times the normalising constant into the 1×1 output block.
  Each lemma below says that the contents the run found for a cell are the corresponding arithmetic term
  (`k0_pay1` the identity recast, `k0_pay4` "cell + tile sum", `k0_pay3` the zero, `k0_pay2` the scaling),
  at any float instance.
-/
import proofs.«148701_j36953898615125_1_alg».proof.Proof.Gen.KernelIdeal.Frame
import Idealize.ShloMosaic.Lib.Pipeline.Value
import Idealize.ShloMosaic.Lib.Tactic

set_option maxRecDepth 16384

noncomputable section

namespace Cert.KernelIdeal.Cells

open Idealize.ShloMosaic Idealize.ShloMosaic.TcCoe Idealize.ShloMosaic.Tactic Idealize.SL.Sem
open Cert.KernelIdeal Cert.KernelIdeal.Gen

variable {F : FTy → Type} [FloatOps F] [Named F]

/-- Every store and load of the body is at offset (0, 0). -/
theorem hz : (![0, 0] : Fin 2 → Nat) = fun _ => 0 := funext fun a => by fin_cases a <;> rfl

/-- First step: the cell ends at zero plus the first tile's sum (the zero is the body's own store, read back). -/
theorem cell_first (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S1000x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1024x128 .f32) (x1 : Vec F S1024x1 .i32) (x2 : Vec F S1000x128 .f32) :
    sout0_A_0 c i arg1 harg1 arg2 harg2 arg3 harg3 arg4 harg4 arg5 harg5 hc0 hc1 x0 x1 x2 = k0_pay1 (k0_pay4 i x0 x2 x1 k0_pay3) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread,
    View.ld_unit_zero (S := S1024x128) hz, View.ld_unit_zero (S := S1000x128) hz, View.ld_unit_zero (S := S1024x1) hz]

/-- A middle step: the cell ends at what the step before left plus this tile's sum. -/
theorem cell_middle (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S1000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1024x128 .f32) (x1 : Vec F S1024x1 .i32) (x2 : Vec F S1000x128 .f32) (xs0 : Vec F S1x1 .f32) :
    sout0_B_0 c i arg1 harg1 arg2 harg2 arg3 harg3 arg4 harg4 arg5 harg5 hc0 hc1 x0 x1 x2 xs0 = k0_pay1 (k0_pay4 i x0 x2 x1 xs0) := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S1024x128) hz, View.ld_unit_zero (S := S1000x128) hz, View.ld_unit_zero (S := S1024x1) hz,
    View.ld_unit_zero (S := S1x1) hz]

/-- The last step leaves the cell as a middle step does … -/
theorem cell_last (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S1000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x128 .f32) (x1 : Vec F S1024x1 .i32) (x2 : Vec F S1000x128 .f32) (xs0 : Vec F S1x1 .f32) :
    sout0_C_0 c i arg1 harg1 arg2 harg2 arg3 harg3 arg4 harg4 arg5 harg5 hc0 hc1 x0 x1 x2 xs0 = k0_pay1 (k0_pay4 i x0 x2 x1 xs0) := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S1024x128) hz, View.ld_unit_zero (S := S1000x128) hz, View.ld_unit_zero (S := S1024x1) hz,
    View.ld_unit_zero (S := S1x1) hz]

/-- … and stores the scaled cell into the output block. -/
theorem out_last (c : Dev nD) (i : grid0.Coords) (arg1 : Memref sig .tc .vmem S1024x128 .f32) (harg1 : arg1.IsWhole) (arg2 : Memref sig .tc .vmem S1024x1 .i32) (harg2 : arg2.IsWhole) (arg3 : Memref sig .tc .vmem S1000x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x128 .f32) (x1 : Vec F S1024x1 .i32) (x2 : Vec F S1000x128 .f32) (xs0 : Vec F S1x1 .f32) :
    out0_C_3 c i arg1 harg1 arg2 harg2 arg3 harg3 arg4 harg4 arg5 harg5 hc0 hc1 x0 x1 x2 xs0 = k0_pay2 (k0_pay1 (k0_pay4 i x0 x2 x1 xs0)) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S1024x128) hz, View.ld_unit_zero (S := S1000x128) hz, View.ld_unit_zero (S := S1024x1) hz,
    View.ld_unit_zero (S := S1x1) hz]

end Cert.KernelIdeal.Cells

end
-- ==== Proof.Spec.lean ====
/-
  The centre loss as one function of its three arguments, over the extended reals.

  For samples x (1024 rows of 128), integer labels l (one per sample) and class centres c (100000 rows of 128)
  the masked distance matrix has, at (b, j), the squared distance ‖x_b‖² + ‖c_j‖² − 2⟨x_b, c_j⟩ where j is
  sample b's label and zero elsewhere; the loss is the sum of all 1024 · 100000 entries times 1/102400000.
  The one law used below is that a finite sum over the extended reals may be taken in any order and grouping
  (addition there is commutative and associative, infinities included): the columns 0 … 99999 are cut into a
  hundred consecutive tiles of a thousand, and the total is the sum of the tiles' sums, taken tile after tile
  starting from zero. No finiteness is needed anywhere.
-/
import Idealize.ShloMosaic.Lib.ValueIdx

noncomputable section

open scoped BigOperators

namespace Cert.CenterLoss

open Idealize.ShloMosaic Idealize.ShloMosaic.ValueIdx

/-- The squared Euclidean length of row `b` of a matrix with 128 columns. -/
def rowSq {n : ℕ} (x : FVec Ideal ⟨2, ![n, 128]⟩ .f32) (b : Fin n) : EReal :=
  ∑ k : Fin 128, x (ix2 b k) * x (ix2 b k)

/-- The inner product of row `b` of `x` with row `j` of `c`. -/
def rowDot {n n' : ℕ} (x : FVec Ideal ⟨2, ![n, 128]⟩ .f32) (c : FVec Ideal ⟨2, ![n', 128]⟩ .f32)
    (b : Fin n) (j : Fin n') : EReal :=
  ∑ k : Fin 128, x (ix2 b k) * c (ix2 j k)

/-- A label word against a class word: one where they are the same word, zero where they differ
    (the equality test's bit read as a number). -/
def hit (l w : BitVec 32) : EReal := (((IntOp.cmpi .eq l w).toNat : ℝ) : EReal)

/-- The factor two of ‖x − c‖² = ‖x‖² + ‖c‖² − 2⟨x, c⟩, as the float word both programs carry. -/
def two : EReal := Ideal.ofBits .f32 0x40000000#32

/-- Sample `b`'s squared distance to a centre row, expanded, kept where the class word `w` is the sample's label. -/
def masked (sx sc d : EReal) (l w : BitVec 32) : EReal := ((sx + sc) - two * d) * hit l w

/-- Entry (b, j) of the masked distance matrix. -/
def entry (x : FVec Ideal ⟨2, ![1024, 128]⟩ .f32) (l : Fin 1024 → BitVec 32) (c : FVec Ideal ⟨2, ![100000, 128]⟩ .f32)
    (b : Fin 1024) (j : Fin 100000) : EReal :=
  masked (rowSq x b) (rowSq c j) (rowDot x c b j) (l b) (BitVec.ofNat 32 j.val)

/-- The sum of the whole matrix, row by row. -/
def total (x : FVec Ideal ⟨2, ![1024, 128]⟩ .f32) (l : Fin 1024 → BitVec 32) (c : FVec Ideal ⟨2, ![100000, 128]⟩ .f32) : EReal :=
  ∑ b : Fin 1024, ∑ j : Fin 100000, entry x l c b j

/-- The loss: the mean over all 102400000 entries, written as the product with the exact reciprocal. -/
def loss (x : FVec Ideal ⟨2, ![1024, 128]⟩ .f32) (l : Fin 1024 → BitVec 32) (c : FVec Ideal ⟨2, ![100000, 128]⟩ .f32) : EReal :=
  total x l c * ((1 / 102400000 : ℝ) : EReal)

/-! ## The columns in a hundred tiles of a thousand -/

/-- Column `jj` of tile `i` is column 1000·i + jj of the matrix. -/
def tileCol (i : Fin 100) (jj : Fin 1000) : Fin 100000 :=
  ⟨i.val * 1000 + jj.val, by have := i.isLt; have := jj.isLt; omega⟩

/-- Every column lies in exactly one tile, at exactly one place. -/
def tileEquiv : Fin 100 × Fin 1000 ≃ Fin 100000 where
  toFun p := tileCol p.1 p.2
  invFun j := (⟨j.val / 1000, by have := j.isLt; omega⟩, ⟨j.val % 1000, Nat.mod_lt _ (by norm_num)⟩)
  left_inv p := by
    obtain ⟨i, jj⟩ := p
    have hi := i.isLt
    have hj := jj.isLt
    refine Prod.ext (Fin.ext ?_) (Fin.ext ?_)
    · show (i.val * 1000 + jj.val) / 1000 = i.val
      omega
    · show (i.val * 1000 + jj.val) % 1000 = jj.val
      omega
  right_inv j := by
    refine Fin.ext ?_
    show j.val / 1000 * 1000 + j.val % 1000 = j.val
    omega

/-- The sum of tile `i`: all samples against the tile's thousand centres. -/
def tileSum (x : FVec Ideal ⟨2, ![1024, 128]⟩ .f32) (l : Fin 1024 → BitVec 32) (c : FVec Ideal ⟨2, ![100000, 128]⟩ .f32)
    (i : Fin 100) : EReal :=
  ∑ b : Fin 1024, ∑ jj : Fin 1000, entry x l c b (tileCol i jj)

/-- The whole matrix's sum is the sum of the hundred tiles' sums. -/
theorem total_eq_tiles (x : FVec Ideal ⟨2, ![1024, 128]⟩ .f32) (l : Fin 1024 → BitVec 32)
    (c : FVec Ideal ⟨2, ![100000, 128]⟩ .f32) : total x l c = ∑ i : Fin 100, tileSum x l c i := by
  unfold total tileSum
  have h : ∀ b : Fin 1024, ∑ j : Fin 100000, entry x l c b j
      = ∑ i : Fin 100, ∑ jj : Fin 1000, entry x l c b (tileCol i jj) := fun b => by
    rw [← Equiv.sum_comp tileEquiv (fun j => entry x l c b j), Fintype.sum_prod_type]
    rfl
  rw [Finset.sum_congr rfl fun b _ => h b]
  exact Finset.sum_comm

/-! ## Adding the tiles one after another, from zero -/

/-- The running total after step `n`: zero plus the first term, then each further term added in turn. -/
def running (p : ℕ → EReal) : ℕ → EReal
  | 0 => 0 + p 0
  | n + 1 => running p n + p (n + 1)

/-- The running total is the sum of the terms so far. -/
theorem running_eq_sum (p : ℕ → EReal) (n : ℕ) : running p n = ∑ k ∈ Finset.range (n + 1), p k := by
  induction n with
  | zero => simp [running]
  | succ n ih => rw [running, ih, Finset.sum_range_succ _ (n + 1)]

/-- Tile `n`'s sum as a term of a sequence (nothing beyond the hundredth tile). -/
def tileTerm (x : FVec Ideal ⟨2, ![1024, 128]⟩ .f32) (l : Fin 1024 → BitVec 32) (c : FVec Ideal ⟨2, ![100000, 128]⟩ .f32)
    (n : ℕ) : EReal :=
  if h : n < 100 then tileSum x l c ⟨n, h⟩ else 0

/-- After the hundredth tile the running total is the whole matrix's sum. -/
theorem running_last (x : FVec Ideal ⟨2, ![1024, 128]⟩ .f32) (l : Fin 1024 → BitVec 32)
    (c : FVec Ideal ⟨2, ![100000, 128]⟩ .f32) : running (tileTerm x l c) 99 = total x l c := by
  rw [running_eq_sum, total_eq_tiles, Finset.sum_range]
  refine Finset.sum_congr rfl fun i _ => ?_
  unfold tileTerm
  rw [dif_pos i.isLt]

end Cert.CenterLoss

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Tile.lean ====
/-
  One grid step's arithmetic, entry by entry, over the extended reals.

  At step i the body holds the 1024 samples x, their label column, and the tile cb of a thousand centres
  (rows 1000·i … 1000·i + 999 of the centre matrix). It forms the 1024 × 1000 matrix whose (b, jj) entry is
  (‖x_b‖² + ‖cb_jj‖²) − 2⟨x_b, cb_jj⟩, kept where the label of b is the class word 1000·i + jj and zero
  elsewhere, sums each row, then sums the 1024 row sums, and adds that to the running cell. Here each piece of
  that computation is read at an index: the squared lengths (a row sum kept as a column, or as a row after a
  transpose, and repeated across the matrix), the inner products (a matrix product into a zero accumulator: a
  sum over the 128 shared coordinates; the change of float format before it is the identity on the extended
  reals), the mask (an equality test of words, its bit read as the number 0 or 1), and the two nested sums.
-/
import proofs.«148701_j36953898615125_1_alg».proof.Proof.Gen.KernelIdeal.Skeleton
import proofs.«148701_j36953898615125_1_alg».proof.Proof.Spec
import proofs.«148701_j36953898615125_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Tile

open Idealize.ShloMosaic Idealize.ShloMosaic.ValueIdx Idealize.SL.Sem
open Cert.KernelIdeal Cert.KernelIdeal.Gen
open Cert.CenterLoss Cert.Lib

/-! ## The step's matrix, piece by piece -/

/-- ‖x_b‖² repeated along row b of the 1024 × 1000 matrix. -/
def sqRows (x : FVec Ideal S1024x128 .f32) : FVec Ideal S1024x1000 .f32 :=
  broadcastTo S1024x1000 (shapeCast S1024x1 (multiReduction .add [1] S1024 (mulf x x) 0x00000000#32 reduces_S1024x128_S1024 (.inl rfl) rfl) shapeCasts_S1024_S1024x1) broadcasts_S1024x1_S1024x1000

/-- ‖cb_jj‖² repeated down column jj. -/
def sqCols (cb : FVec Ideal S1000x128 .f32) : FVec Ideal S1024x1000 .f32 :=
  broadcastTo S1024x1000 (transpose S1x1000 [1, 0] (shapeCast S1000x1 (multiReduction .add [1] S1000 (mulf cb cb) 0x00000000#32 reduces_S1000x128_S1000 (.inl rfl) rfl) shapeCasts_S1000_S1000x1) transposes_S1000x1_p1_0_S1x1000) broadcasts_S1x1000_S1024x1000

/-- ⟨x_b, cb_jj⟩ at (b, jj). -/
def dots (x : FVec Ideal S1024x128 .f32) (cb : FVec Ideal S1000x128 .f32) : FVec Ideal S1024x1000 .f32 :=
  matmul dot_S1024x128_S128x1000_S1024x1000_1_0_0_1_n_n none (truncf .bf16 x bitsLt_bf16_f32) (transpose S128x1000 [1, 0] (truncf .bf16 cb bitsLt_bf16_f32) transposes_S1000x128_p1_0_S128x1000) (constant S1024x1000 .f32 0x00000000#32)

/-- One where sample b's label is the class word of column jj of tile i, zero elsewhere. -/
def mask (i : grid0.Coords) (lc : IVec S1024x1 32) : FVec Ideal S1024x1000 .f32 :=
  sitofp .f32 (extui 32 (cmpi .eq (broadcastTo S1024x1000 (shapeCast S1024x1 lc shapeCasts_S1024x1_S1024x1) broadcasts_S1024x1_S1024x1000) (addi (iota .tc S1024x1000 32 [1] iota_S1024x1000_d1_w32) (broadcast S1024x1000 (Scalar.muli (BitVec.ofNat 32 (i 0).val) 1000#32)))) natLt_1_32)

/-- The masked squared distances of the step. -/
def dist (i : grid0.Coords) (x : FVec Ideal S1024x128 .f32) (cb : FVec Ideal S1000x128 .f32) (lc : IVec S1024x1 32) : FVec Ideal S1024x1000 .f32 :=
  mulf (subf (addf (sqRows x) (sqCols cb)) (mulf (broadcast S1024x1000 (Scalar.ofBits .f32 0x40000000#32)) (dots x cb))) (mask i lc)

/-- Every entry of a 1024 × 1000 matrix summed into one cell: each row first, then the row sums. -/
def collapse (v : FVec Ideal S1024x1000 .f32) : FVec Ideal S1x1 .f32 :=
  shapeCast S1x1 (multiReduction .add [0] S1 (shapeCast S1024x1 (multiReduction .add [1] S1024 v 0x00000000#32 reduces_S1024x1000_S1024 (.inl rfl) rfl) shapeCasts_S1024_S1024x1) 0x00000000#32 reduces_S1024x1_S1 (.inl rfl) rfl) shapeCasts_S1_S1x1

/-- The step's stored value is the cell plus the collapsed matrix: the printed arithmetic, regrouped. -/
theorem pay4_eq (i : grid0.Coords) (x : Vec Ideal S1024x128 .f32) (cb : Vec Ideal S1000x128 .f32) (lc : Vec Ideal S1024x1 .i32)
    (acc : Vec Ideal S1x1 .f32) : k0_pay4 (F := Ideal) i x cb lc acc = addf acc (collapse (dist i x cb lc)) := rfl

/-! ## Each piece at an index -/

theorem sqRows_apply (x : FVec Ideal S1024x128 .f32) (b : Fin 1024) (jj : Fin 1000) :
    sqRows x (ix2 b jj) = rowSq x b :=
  rowSum_keepdims_apply (mulf x x) 0x00000000#32 reduces_S1024x128_S1024 (.inl rfl) rfl shapeCasts_S1024_S1024x1
    broadcasts_S1024x1_S1024x1000 b jj

theorem sqCols_apply (cb : FVec Ideal S1000x128 .f32) (b : Fin 1024) (jj : Fin 1000) :
    sqCols cb (ix2 b jj) = rowSq cb jj :=
  (broadcastTo_1b_ab_apply _ broadcasts_S1x1000_S1024x1000 b jj).trans
    ((transpose_ix2_apply _ transposes_S1000x1_p1_0_S1x1000 (0 : Fin 1) jj).trans
      ((shapeCast_a_a1_apply _ shapeCasts_S1000_S1000x1 jj 0).trans
        (rowSum_apply (mulf cb cb) 0x00000000#32 reduces_S1000x128_S1000 (.inl rfl) rfl jj)))

theorem lhs_0 (j : S1024x1000.Idx) (q : dot_S1024x128_S128x1000_S1024x1000_1_0_0_1_n_n.contr.Idx) : (dot_S1024x128_S128x1000_S1024x1000_1_0_0_1_n_n.lhsIdx j q 0).val = (j 0).val := by
  unfold DotDims.lhsIdx
  rw [dif_neg (show ¬(0 : Fin S1024x128.rank) ∈ dot_S1024x128_S128x1000_S1024x1000_1_0_0_1_n_n.lhsBatch by decide), dif_pos (show (0 : Fin S1024x128.rank) ∈ dot_S1024x128_S128x1000_S1024x1000_1_0_0_1_n_n.lhsNonContracting by decide)]
  rfl
theorem lhs_1 (j : S1024x1000.Idx) (q : dot_S1024x128_S128x1000_S1024x1000_1_0_0_1_n_n.contr.Idx) : (dot_S1024x128_S128x1000_S1024x1000_1_0_0_1_n_n.lhsIdx j q 1).val = (q ⟨0, by decide⟩).val :=
  dot_S1024x128_S128x1000_S1024x1000_1_0_0_1_n_n.lhsIdx_val_of_single rfl j q
theorem rhs_0 (j : S1024x1000.Idx) (q : dot_S1024x128_S128x1000_S1024x1000_1_0_0_1_n_n.contr.Idx) : (dot_S1024x128_S128x1000_S1024x1000_1_0_0_1_n_n.rhsIdx j q 0).val = (q ⟨0, by decide⟩).val :=
  dot_S1024x128_S128x1000_S1024x1000_1_0_0_1_n_n.rhsIdx_val_of_single rfl j q
theorem rhs_1 (j : S1024x1000.Idx) (q : dot_S1024x128_S128x1000_S1024x1000_1_0_0_1_n_n.contr.Idx) : (dot_S1024x128_S128x1000_S1024x1000_1_0_0_1_n_n.rhsIdx j q 1).val = (j 1).val := by
  unfold DotDims.rhsIdx
  rw [dif_neg (show ¬(1 : Fin S128x1000.rank) ∈ dot_S1024x128_S128x1000_S1024x1000_1_0_0_1_n_n.rhsBatch by decide), dif_pos (show (1 : Fin S128x1000.rank) ∈ dot_S1024x128_S128x1000_S1024x1000_1_0_0_1_n_n.rhsNonContracting by decide)]
  rfl

theorem dots_apply (x : FVec Ideal S1024x128 .f32) (cb : FVec Ideal S1000x128 .f32) (b : Fin 1024) (jj : Fin 1000) :
    dots x cb (ix2 b jj) = rowDot x cb b jj := by
  unfold dots
  simp only [matmul]
  rw [Ideal.matmul_constant_zero_apply, ← Equiv.sum_comp (contrEquiv1 dot_S1024x128_S128x1000_S1024x1000_1_0_0_1_n_n 128 rfl rfl).symm]
  unfold rowDot
  refine Finset.sum_congr rfl fun k _ => ?_
  have hk := contrEquiv1_symm_val dot_S1024x128_S128x1000_S1024x1000_1_0_0_1_n_n 128 rfl rfl k
  have el : dot_S1024x128_S128x1000_S1024x1000_1_0_0_1_n_n.lhsIdx (ix2 b jj) ((contrEquiv1 dot_S1024x128_S128x1000_S1024x1000_1_0_0_1_n_n 128 rfl rfl).symm k) = ix2 b k := funext fun a => Fin.ext (by
    match a with
    | ⟨0, _⟩ => exact lhs_0 _ _
    | ⟨1, _⟩ => exact (lhs_1 _ _).trans hk)
  have er : dot_S1024x128_S128x1000_S1024x1000_1_0_0_1_n_n.rhsIdx (ix2 b jj) ((contrEquiv1 dot_S1024x128_S128x1000_S1024x1000_1_0_0_1_n_n 128 rfl rfl).symm k) = ix2 k jj := funext fun a => Fin.ext (by
    match a with
    | ⟨0, _⟩ => exact (rhs_0 _ _).trans hk
    | ⟨1, _⟩ => exact rhs_1 _ _)
  rw [el, er]
  exact congrArg (x (ix2 b k) * ·) (transpose_ix2_apply (truncf .bf16 cb bitsLt_bf16_f32) transposes_S1000x128_p1_0_S128x1000 k jj)

/-- The class word of column jj of tile n. -/
def tileWord (n jj : ℕ) : BitVec 32 := BitVec.ofNat 32 (n * 1000 + jj)

theorem word_eq (n jj : ℕ) : IntOp.addi (BitVec.ofNat 32 jj) (Scalar.muli (BitVec.ofNat 32 n) 1000#32) = tileWord n jj := by
  unfold IntOp.addi Scalar.muli IntOp.muli tileWord
  apply BitVec.eq_of_toNat_eq
  simp only [BitVec.toNat_add, BitVec.toNat_mul, BitVec.toNat_ofNat]
  omega

/-- A one-bit word widened and read signed is the bit as a number. -/
theorem bit_toInt : ∀ β : BitVec 1, (β.setWidth 32).toInt = (β.toNat : ℤ) := by decide

theorem mask_apply (i : grid0.Coords) (lc : IVec S1024x1 32) (b : Fin 1024) (jj : Fin 1000) :
    mask i lc (ix2 b jj) = hit (lc (ix2 b (0 : Fin 1))) (tileWord (i 0).val jj.val) := by
  have hl : broadcastTo S1024x1000 (shapeCast S1024x1 lc shapeCasts_S1024x1_S1024x1) broadcasts_S1024x1_S1024x1000 (ix2 b jj)
      = lc (ix2 b (0 : Fin 1)) :=
    (broadcastTo_a1_ab_apply _ broadcasts_S1024x1_S1024x1000 b jj).trans (congrFun (shapeCast_self lc _) _)
  have hw : addi (iota .tc S1024x1000 32 [1] iota_S1024x1000_d1_w32) (broadcast S1024x1000 (Scalar.muli (BitVec.ofNat 32 (i 0).val) 1000#32)) (ix2 b jj)
      = tileWord (i 0).val jj.val := by
    show IntOp.addi (iota .tc S1024x1000 32 [1] iota_S1024x1000_d1_w32 (ix2 b jj)) (Scalar.muli (BitVec.ofNat 32 (i 0).val) 1000#32) = _
    rw [iota_single_apply]
    exact word_eq _ _
  show ((((IntOp.cmpi .eq (broadcastTo S1024x1000 (shapeCast S1024x1 lc shapeCasts_S1024x1_S1024x1) broadcasts_S1024x1_S1024x1000 (ix2 b jj))
      (addi (iota .tc S1024x1000 32 [1] iota_S1024x1000_d1_w32) (broadcast S1024x1000 (Scalar.muli (BitVec.ofNat 32 (i 0).val) 1000#32)) (ix2 b jj))).setWidth 32).toInt : ℝ) : EReal) = _
  rw [hl, hw, bit_toInt]
  unfold hit
  norm_cast

/-- The matrix at (b, jj) is the masked squared distance of sample b to centre jj of the tile. -/
theorem dist_apply (i : grid0.Coords) (x : FVec Ideal S1024x128 .f32) (cb : FVec Ideal S1000x128 .f32) (lc : IVec S1024x1 32)
    (b : Fin 1024) (jj : Fin 1000) :
    dist i x cb lc (ix2 b jj)
      = masked (rowSq x b) (rowSq cb jj) (rowDot x cb b jj) (lc (ix2 b (0 : Fin 1))) (tileWord (i 0).val jj.val) := by
  show ((sqRows x (ix2 b jj) + sqCols cb (ix2 b jj)) - Ideal.ofBits .f32 0x40000000#32 * dots x cb (ix2 b jj)) * mask i lc (ix2 b jj) = _
  rw [sqRows_apply, sqCols_apply, dots_apply, mask_apply]
  rfl

theorem lift_col (h : S1024x1.Reduces [0] S1) (k : Fin 1024) : h.lift (ix1 (0 : Fin 1)) k = ix2 k (0 : Fin 1) := by
  funext d; apply Fin.ext
  match d with | ⟨0, _⟩ => rfl | ⟨1, _⟩ => rfl

/-- A column of 1024 entries summed along its long axis: the sum of the entries. -/
theorem colSum_apply (w : FVec Ideal S1024x1 .f32) :
    multiReduction .add [0] S1 w 0x00000000#32 reduces_S1024x1_S1 (.inl rfl) rfl (ix1 (0 : Fin 1))
      = ∑ b : Fin 1024, w (ix2 b (0 : Fin 1)) :=
  (Ideal.multiReduction_add_single w 0x00000000#32 reduces_S1024x1_S1 (.inl rfl) rfl (ix1 (0 : Fin 1))).trans
    (Finset.sum_congr rfl fun k _ => congrArg w (lift_col reduces_S1024x1_S1 k))

/-- The collapsed matrix is the double sum of its entries, at the cell's one index. -/
theorem collapse_apply (v : FVec Ideal S1024x1000 .f32) (y : S1x1.Idx) :
    collapse v y = ∑ b : Fin 1024, ∑ jj : Fin 1000, v (ix2 b jj) := by
  unfold collapse
  have hy0 : (y 0).val = 0 := by have h : (y 0).val < 1 := (y 0).isLt; omega
  have hy1 : (y 1).val = 0 := by have h : (y 1).val < 1 := (y 1).isLt; omega
  refine (shapeCast_apply _ shapeCasts_S1_S1x1 y (ix1 (0 : Fin 1)) (by
    rw [Shape.rowMajor_val_one, Shape.rowMajor_val_two]
    show (0 : ℕ) = (y 0).val * 1 + (y 1).val
    omega)).trans ?_
  refine (colSum_apply _).trans ?_
  refine Finset.sum_congr rfl fun b _ => ?_
  exact (shapeCast_a_a1_apply _ shapeCasts_S1024_S1024x1 b 0).trans
    (rowSum_apply v 0x00000000#32 reduces_S1024x1000_S1024 (.inl rfl) rfl b)

/-- The step's contribution: all samples against the tile's thousand centres. -/
def stepSum (n : ℕ) (x : FVec Ideal S1024x128 .f32) (cb : FVec Ideal S1000x128 .f32) (lc : IVec S1024x1 32) : EReal :=
  ∑ b : Fin 1024, ∑ jj : Fin 1000,
    masked (rowSq x b) (rowSq cb jj) (rowDot x cb b jj) (lc (ix2 b (0 : Fin 1))) (tileWord n jj.val)

/-- What a step stores into the cell: the cell plus the step's contribution. -/
theorem pay4_apply (i : grid0.Coords) (x : Vec Ideal S1024x128 .f32) (cb : Vec Ideal S1000x128 .f32) (lc : Vec Ideal S1024x1 .i32)
    (acc : Vec Ideal S1x1 .f32) (y : S1x1.Idx) :
    k0_pay4 (F := Ideal) i x cb lc acc y = acc y + stepSum (i 0).val x cb lc := by
  rw [pay4_eq]
  show acc y + collapse (dist i x cb lc) y = _
  rw [collapse_apply]
  unfold stepSum
  refine congrArg (acc y + ·) (Finset.sum_congr rfl fun b _ => Finset.sum_congr rfl fun jj _ => ?_)
  exact dist_apply i x cb lc b jj

/-! ## The other stored values -/

/-- The recast before each store of the cell changes nothing. -/
theorem pay1_eq (v : FVec Ideal S1x1 .f32) : k0_pay1 (F := Ideal) v = v := shapeCast_self v _

/-- The first step's reset stores zero. -/
theorem pay3_apply (y : S1x1.Idx) : k0_pay3 (F := Ideal) y = 0 := by
  show shapeCast S1x1 (broadcast S1x1 (Scalar.ofBits (F := Ideal) .f32 0x00000000#32)) shapeCasts_S1x1_S1x1 y = 0
  rw [shapeCast_self]
  exact Ideal.ofBits_zero_f32

/-- The normalising constant denotes exactly 1/102400000: its name's entry in the table of constants. -/
theorem inv_total : Named.named (F := Ideal) κ "inv_total_elems" (φ := .f32) 0x3227C5AC#32 = ((1 / 102400000 : ℝ) : EReal) :=
  IdealRules.named_const.ideal_named_scalar _ _ _ _ rfl

/-- The last step's output is the cell times 1/102400000. -/
theorem pay2_apply (v : Vec Ideal S1x1 .f32) (y : S1x1.Idx) :
    k0_pay2 (F := Ideal) v y = v y * ((1 / 102400000 : ℝ) : EReal) := by
  show v y * Named.named (F := Ideal) κ "inv_total_elems" (φ := .f32) 0x3227C5AC#32 = _
  rw [inv_total]

end Cert.KernelIdeal.Tile

end
-- ==== Proof.Steps.lean ====
/-
  The hundred steps, one after another, and what the kernel's program returns.

  The samples and the label column are staged whole at every step; the centres are staged a thousand rows at a
  time, step t holding rows 1000·t … 1000·t + 999. So step t adds to the running cell exactly the sum of tile t
  of the masked distance matrix, the cell starts from zero at the first step, and after the last step it holds
  the sum of all hundred tiles: the whole matrix's sum. The last step alone stores into the output block — the cell
  times 1/102400000 — and only that step's block is written back, and it is the whole 1 × 1 result array. The
  program then recasts the 1 × 1 array as a scalar, which reads the same one number.
-/
import proofs.«148701_j36953898615125_1_alg».proof.Proof.Gen.KernelIdeal.Frame
import proofs.«148701_j36953898615125_1_alg».proof.Proof.Cells
import proofs.«148701_j36953898615125_1_alg».proof.Proof.Tile
import proofs.«148701_j36953898615125_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Steps

open Idealize.ShloMosaic Idealize.ShloMosaic.TcCoe Idealize.ShloMosaic.ValueIdx Idealize.SL.Sem
open Idealize.ShloMosaic.Pipeline (Dat)
open Cert.KernelIdeal Cert.KernelIdeal.Gen Cert.CenterLoss Cert.Lib

variable (m : (ℓ : Loc nD τ sig) → Buf (Elt Ideal) ℓ) (ρ : Dev nD → PrngReg)

/-! ## The three arguments -/

/-- The samples. -/
abbrev X (c : Dev nD) : FVec Ideal S1024x128 .f32 := m ((c : Thread nD τ).loc main_arg0)
/-- The label words, as a vector and one per sample. -/
abbrev Lv (c : Dev nD) : IVec S1024 32 := m ((c : Thread nD τ).loc main_arg1)
abbrev L (c : Dev nD) : Fin 1024 → BitVec 32 := fun b => Lv m c (ix1 b)
/-- The centres. -/
abbrev C (c : Dev nD) : FVec Ideal S100000x128 .f32 := m ((c : Thread nD τ).loc main_arg2)

/-- Tile i of a centre matrix: its rows 1000·i … 1000·i + 999. -/
def tileOf (cn : FVec Ideal S100000x128 .f32) (i : Fin 100) : FVec Ideal S1000x128 .f32 :=
  fun y => cn (ix2 (tileCol i (y 0)) (y 1))

/-- A step on tile i contributes tile i's sum. -/
theorem stepSum_tile (n : ℕ) (h : n < 100) (x : FVec Ideal S1024x128 .f32) (l : IVec S1024 32) (cn : FVec Ideal S100000x128 .f32) :
    Tile.stepSum n x (tileOf cn ⟨n, h⟩) (shapeCast S1024x1 l shapeCasts_S1024_S1024x1)
      = tileSum x (fun b => l (ix1 b)) cn ⟨n, h⟩ := by
  unfold Tile.stepSum tileSum
  refine Finset.sum_congr rfl fun b _ => Finset.sum_congr rfl fun jj _ => ?_
  unfold entry
  rw [shapeCast_a_a1_apply l shapeCasts_S1024_S1024x1 b 0]
  rfl

/-! ## The blocks the steps load -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
/-- The body's step counter is the step's number. -/
theorem coord0 : ∀ t : Fin cfg0.N, ((grid0.coords t) 0).val = t.val :=
  (by decide +kernel : ∀ t : Fin grid0.N, ((grid0.coords t) 0).val = t.val)

/-- The label column the region finds: the label vector recast as a column, by the program's first line. -/
theorem V_labels (c : Dev nD) :
    V m c main_v0 = shapeCast S1024x1 (Lv m c) shapeCasts_S1024_S1024x1 := by
  show StableHlo.after hostOps0 (fun b => m (c, b)) (Proc.devRef .tc main_v0) = _
  after_results
  rfl

/-- Every step's sample block is the whole sample array. -/
theorem blk0 (c : Dev nD) (t : Fin cfg0.N) : (iblk m c 0 t : Vec Ideal S1024x128 .f32) = X m c := by
  funext y
  unfold iblk
  rw [View.read_apply]
  show V m c main_arg0 _ = _
  refine (congrFun (V_main_arg0 m c) _).trans (congrArg (X m c) (funext fun a => Fin.ext ?_))
  match a with
  | ⟨0, _⟩ => show win0_0.index t 0 * 1024 + 1 * (y 0).val = (y 0).val; rw [(idx0 t).1]; omega
  | ⟨1, _⟩ => show win0_0.index t 1 * 128 + 1 * (y 1).val = (y 1).val; rw [(idx0 t).2]; omega

/-- Every step's label block is the whole label column. -/
theorem blk1 (c : Dev nD) (t : Fin cfg0.N) :
    (iblk m c 1 t : Vec Ideal S1024x1 .i32) = shapeCast S1024x1 (Lv m c) shapeCasts_S1024_S1024x1 := by
  funext y
  unfold iblk
  rw [View.read_apply]
  show V m c main_v0 _ = _
  refine (congrFun (V_labels m c) _).trans (congrArg (shapeCast S1024x1 (Lv m c) shapeCasts_S1024_S1024x1) (funext fun a => Fin.ext ?_))
  match a with
  | ⟨0, _⟩ => show win0_1.index t 0 * 1024 + 1 * (y 0).val = (y 0).val; rw [(idx1 t).1]; omega
  | ⟨1, _⟩ => show win0_1.index t 1 * 1 + 1 * (y 1).val = (y 1).val; rw [(idx1 t).2]; omega

/-- Step t's centre block is tile t. -/
theorem blk2 (c : Dev nD) (t : Fin cfg0.N) (ht : t.val < 100) :
    (iblk m c 2 t : Vec Ideal S1000x128 .f32) = tileOf (C m c) ⟨t.val, ht⟩ := by
  funext y
  unfold iblk tileOf
  rw [View.read_apply]
  show V m c main_arg2 _ = _
  refine (congrFun (V_main_arg2 m c) _).trans (congrArg (C m c) (funext fun a => Fin.ext ?_))
  match a with
  | ⟨0, _⟩ => show win0_2.index t 0 * 1000 + 1 * (y 0).val = t.val * 1000 + (y 0).val; rw [(idx2 t).1]; omega
  | ⟨1, _⟩ => show win0_2.index t 1 * 128 + 1 * (y 1).val = (y 1).val; rw [(idx2 t).2]; omega

/-! ## The running cell -/

/-- The tile sums of the three arguments, as a sequence. -/
abbrev term (c : Dev nD) : ℕ → EReal := tileTerm (X m c) (L m c) (C m c)

/-- Step t's contribution is the t-th tile sum. -/
theorem step_term (c : Dev nD) (t : Fin cfg0.N) :
    Tile.stepSum ((grid0.coords t) 0).val (iblk m c 0 t) (iblk m c 2 t) (iblk m c 1 t) = term m c t.val := by
  have ht : t.val < 100 := lt_of_lt_of_eq t.isLt N_0
  rw [coord0 t, blk0 m c t, blk1 m c t, blk2 m c t ht]
  unfold term tileTerm
  rw [dif_pos ht]
  exact stepSum_tile t.val ht (X m c) (Lv m c) (C m c)

/-- After step n the cell holds the running total of the tile sums. -/
theorem cell_eq (c : Dev nD) : ∀ (n : ℕ) (h : n < cfg0.N), (outsAt0 m c n h).2 = fun _ => running (term m c) n
  | 0, h => by
    refine (congrArg Prod.snd (outsAt0_A m c ⟨0, h⟩ rfl (by dsimp only; decide))).trans ?_
    dsimp only
    refine (Cells.cell_first (F := Ideal) c _ _ _ _ _ _ _ _ _ _ _ _ _ _ _ _).trans ?_
    funext y
    rw [Tile.pay1_eq, Tile.pay4_apply, Tile.pay3_apply]
    exact congrArg (0 + ·) (step_term m c ⟨0, h⟩)
  | n + 1, h => by
    have hN : n + 1 < 100 := lt_of_lt_of_eq h N_0
    have h0 : ¬(⟨n + 1, h⟩ : Fin cfg0.N).val % 100 = 0 := by dsimp only; omega
    by_cases h1 : (⟨n + 1, h⟩ : Fin cfg0.N).val % 100 = 99
    · refine (congrArg Prod.snd (outsAt0_C m c ⟨n + 1, h⟩ h0 h1)).trans ?_
      dsimp only
      refine (Cells.cell_last (F := Ideal) c _ _ _ _ _ _ _ _ _ _ _ _ _ _ _ _ _).trans ?_
      funext y
      rw [Tile.pay1_eq, Tile.pay4_apply]
      show (outsAt0 m c n _).2 y + _ = running (term m c) n + term m c (n + 1)
      rw [cell_eq c n]
      exact congrArg (running (term m c) n + ·) (step_term m c ⟨n + 1, h⟩)
    · refine (congrArg Prod.snd (outsAt0_B m c ⟨n + 1, h⟩ h0 h1)).trans ?_
      dsimp only
      refine (Cells.cell_middle (F := Ideal) c _ _ _ _ _ _ _ _ _ _ _ _ _ _ _ _ _).trans ?_
      funext y
      rw [Tile.pay1_eq, Tile.pay4_apply]
      show (outsAt0 m c n _).2 y + _ = running (term m c) n + term m c (n + 1)
      rw [cell_eq c n]
      exact congrArg (running (term m c) n + ·) (step_term m c ⟨n + 1, h⟩)

/-- The last step's output block holds the loss. -/
theorem out_eq (c : Dev nD) (h : 99 < cfg0.N) :
    (outsAt0 m c 99 h).1 = fun _ => loss (X m c) (L m c) (C m c) := by
  refine (congrArg Prod.fst (outsAt0_C m c ⟨99, h⟩ (by dsimp only; decide) rfl)).trans ?_
  dsimp only
  refine (Cells.out_last (F := Ideal) c _ _ _ _ _ _ _ _ _ _ _ _ _ _ _ _ _).trans ?_
  funext y
  rw [Tile.pay2_apply, Tile.pay1_eq, Tile.pay4_apply]
  show ((outsAt0 m c 98 _).2 y + _) * _ = _
  rw [cell_eq m c 98, step_term m c ⟨99, h⟩]
  show running (term m c) 99 * _ = _
  unfold term
  rw [running_last]
  rfl

/-! ## The result array and the program's result -/

/-- The 1 × 1 result array the region leaves: the loss. -/
abbrev G (c : Dev nD) : Buf (Elt Ideal) ((c : Thread nD τ).loc main_v1) := fun _ => loss (X m c) (L m c) (C m c)

theorem hN : cfg0.N = 100 := N_0

/-- The last step. -/
abbrev tLast : Fin cfg0.N := ⟨99, by rw [hN]; decide⟩

/-- The one write-back, after the last step, writes the loss. -/
theorem flushed_eq (c : Dev nD) (t : Fin cfg0.N) (hf : (cfg0.win 3).flush t = true) :
    (dats m 0 c).flushed 3 t = ((cfg0.win 3).blk t).view.read (Elt Ideal) (G m c) := by
  have h99 : t.val = 99 := by have := (flush0_3 t).mp hf; have := t.isLt; have := hN; omega
  obtain rfl : t = tLast := Fin.ext h99
  show (cfg0.win 3).cut (grid0.coords tLast) ((dats m 0 c).after 3 tLast) = _
  rw [after0_3, out_eq]
  rfl

/-- So the result array ends holding the loss: the last step's block is the whole array. -/
theorem final (c : Dev nD) : (dats m 0 c).arrAt 3 cfg0.N = G m c :=
  (dats m 0 c).arrAt_eq_of_cover 3 (G m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The program's result: the result array recast as a scalar. -/
theorem result_eq (c : Dev nD) :
    Pipeline.afterTail₀ cfgs (dats m) 0 (V0 m) [hostOps1] c main_v2 = fun _ => loss (X m c) (L m c) (C m c) := by
  unfold Pipeline.afterTail₀
  show StableHlo.after hostOps1 _ (Proc.devRef .tc main_v2) = _
  after_results
  rw [Pipeline.withArrays_arr spec0 launch0.win.arr_inj c _ _ 3, final]
  rfl

/-- The run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v2) = (fun _ => loss (X m c) (L m c) (C m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Steps

end
-- ==== Proof.RefSide.lean ====
/-
  The reference, read entry by entry, is the specification.

  jnp's program forms the full 1024 × 100000 matrix (‖x_b‖² + ‖c_j‖²) − 2⟨x_b, c_j⟩, multiplies it by the 0/1
  matrix "label of b is class j" (an equality test of the label word against the running index j, converted to a
  float), sums all entries from zero and divides by the float 102400000. On the extended reals a sum from zero is
  the sum, and dividing by the nonzero real 102400000 is multiplying by its reciprocal, whatever the dividend.
-/
import proofs.«148701_j36953898615125_1_alg».proof.Proof.Gen.ReferenceIdeal.Read
import proofs.«148701_j36953898615125_1_alg».proof.Proof.Spec
import Idealize.ShloMosaic.Lib.ValueIdx
import Idealize.ShloMosaic.PureOps.Ideal.Laws

noncomputable section

open scoped BigOperators

namespace Cert.ReferenceIdeal.Mean

open Idealize.ShloMosaic Idealize.ShloMosaic.ValueIdx Idealize.SL.Sem
open Cert.ReferenceIdeal Cert.ReferenceIdeal.Gen Cert.ReferenceIdeal.Read Cert.CenterLoss

/-- The labels as one word per sample. -/
abbrev labels (x1 : (⟨S1024, .i32⟩ : BufTy).Contents (Elt Ideal)) : Fin 1024 → BitVec 32 := fun b => x1 (ix1 b)

/-- The float word 102400000.0 is the real 102400000 = 2¹⁵ · 3125. -/
theorem ofBits_count : Ideal.ofBits .f32 0x4CC35000#32 = ((102400000 : ℝ) : EReal) := by
  simp [Ideal.ofBits, Ideal.ieee, -EReal.coe_mul]; norm_num

/-- The masked matrix at (b, j). -/
theorem masked_apply (x0 : (⟨S1024x128, .f32⟩ : BufTy).Contents (Elt Ideal)) (x1 : (⟨S1024, .i32⟩ : BufTy).Contents (Elt Ideal))
    (x2 : (⟨S100000x128, .f32⟩ : BufTy).Contents (Elt Ideal)) (b : Fin 1024) (j : Fin 100000) :
    val_main_v21 (F := Ideal) x0 x1 x2 (ix2 b j) = entry x0 (labels x1) x2 b j := by
  have e1 : ∀ k : Fin 128, idx_main_v1 (idx_main_v2 (idx_main_v6 (ix2 b j))) k = ix2 b k := fun k =>
    funext fun a => Fin.ext (by match a with | ⟨0, _⟩ => rfl | ⟨1, _⟩ => rfl)
  have e2 : ∀ k : Fin 128, idx_main_v4 (idx_main_v5 (idx_main_v7 (ix2 b j))) k = ix2 j k := fun k =>
    funext fun a => Fin.ext (by match a with | ⟨0, _⟩ => rfl | ⟨1, _⟩ => rfl)
  have e3 : ∀ k : Fin 128, lidx_main_v10 (ix2 b j) k = ix2 b k := fun k =>
    funext fun a => Fin.ext (by match a with | ⟨0, _⟩ => rfl | ⟨1, _⟩ => rfl)
  have e4 : ∀ k : Fin 128, idx_main_v9 (ridx_main_v10 (ix2 b j) k) = ix2 j k := fun k =>
    funext fun a => Fin.ext (by match a with | ⟨0, _⟩ => rfl | ⟨1, _⟩ => rfl)
  have e5 : idx_main_v15 (idx_main_v17 (ix2 b j)) = ix1 b :=
    funext fun a => Fin.ext (by match a with | ⟨0, _⟩ => rfl)
  rw [val_main_v21_apply, val_main_v13_apply, val_main_v8_apply, val_main_v6_apply, val_main_v2_apply, val_main_v1_apply,
    val_main_v7_apply, val_main_v5_apply, val_main_v4_apply, val_main_v12_apply, val_main_v11_apply, val_main_v10_apply,
    val_main_v20_apply, val_main_v19_apply, val_main_v17_apply, val_main_v15_apply, val_main_v18_apply, val_main_v16_apply,
    val_main_v14_apply]
  simp only [val_main_v0_apply, val_main_v3_apply, val_main_v9_apply, val_main_cst_apply, val_main_cst_0_apply,
    val_main_cst_1_apply, e1, e2, e3, e4, e5, Ideal.addf_def, Ideal.subf_def, Ideal.mulf_def, Ideal.ofBits_def,
    Ideal.ofBits_zero_f32, zero_add]
  rfl

/-- The reference's result is the loss of its three arguments. -/
theorem result_eq (x0 : (⟨S1024x128, .f32⟩ : BufTy).Contents (Elt Ideal)) (x1 : (⟨S1024, .i32⟩ : BufTy).Contents (Elt Ideal))
    (x2 : (⟨S100000x128, .f32⟩ : BufTy).Contents (Elt Ideal)) :
    val_main_v23 (F := Ideal) x0 x1 x2 = fun _ => loss x0 (labels x1) x2 := by
  funext i
  rw [val_main_v23_apply, val_main_v22_apply, sum_idx2]
  simp only [masked_apply, val_main_cst_2_apply, val_main_cst_3_apply, Ideal.hostDivf_def, Ideal.ofBits_def,
    Ideal.ofBits_zero_f32, zero_add, ofBits_count]
  rw [Ideal.div_coe (by norm_num : (102400000 : ℝ) ≠ 0)]
  rfl

end Cert.ReferenceIdeal.Mean

end
-- ==== Proof.lean ====
/-
  The centre loss kernel against jnp's centre loss.

  Both programs compute, from samples x, integer labels and class centres c, the mean over the 1024 × 100000
  matrix whose (b, j) entry is ‖x_b‖² + ‖c_j‖² − 2⟨x_b, c_j⟩ where j is b's label and zero elsewhere. The kernel
  never forms the matrix: it walks the centres in a hundred tiles of a thousand rows, sums each tile's entries
  into one running cell, and multiplies the final cell by the constant 1/102400000 (named in the kernel's table
  of constants, which is what the idealization's one rewrite records); the reference forms the whole matrix,
  sums it from zero and divides by 102400000. Over the extended reals these are one number: a finite sum does
  not depend on the order or grouping of its terms, and dividing by a nonzero real is multiplying by its
  reciprocal whatever the dividend — so the precondition is never opened.
  The frames of the two kernel programs are the generated frame certificates; the reference's frame is its
  generated run with the result dropped.
-/
import proofs.«148701_j36953898615125_1_alg».proof.Defs
import proofs.«148701_j36953898615125_1_alg».proof.Proof.Gen.Kernel
import proofs.«148701_j36953898615125_1_alg».proof.Proof.Gen.Kernel.Skeleton
import proofs.«148701_j36953898615125_1_alg».proof.Proof.Gen.Kernel.Launch
import proofs.«148701_j36953898615125_1_alg».proof.Proof.Gen.Kernel.Points
import proofs.«148701_j36953898615125_1_alg».proof.Proof.Gen.Kernel.Frame
import proofs.«148701_j36953898615125_1_alg».proof.Proof.Gen.KernelIdeal
import proofs.«148701_j36953898615125_1_alg».proof.Proof.Gen.KernelIdeal.Skeleton
import proofs.«148701_j36953898615125_1_alg».proof.Proof.Gen.KernelIdeal.Launch
import proofs.«148701_j36953898615125_1_alg».proof.Proof.Gen.KernelIdeal.Points
import proofs.«148701_j36953898615125_1_alg».proof.Proof.Gen.KernelIdeal.Frame
import proofs.«148701_j36953898615125_1_alg».proof.Proof.Gen.ReferenceIdeal
import proofs.«148701_j36953898615125_1_alg».proof.Proof.Gen.ReferenceIdeal.Run
import proofs.«148701_j36953898615125_1_alg».proof.Proof.Gen.ReferenceIdeal.Read
import proofs.«148701_j36953898615125_1_alg».proof.Proof.Gen.Pre_finite_inputs
import proofs.«148701_j36953898615125_1_alg».proof.Proof.Steps
import proofs.«148701_j36953898615125_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the kernel's normalising constant, by its name's entry in the table, is 1/102400000. -/
theorem preserves : Cert.preserves_Kernel_KernelIdeal :=
  IdealRules.named_const.statement Cert.KernelIdeal.κ "inv_total_elems" .f32 0x3227C5AC#32 ((1 / 102400000 : ℝ) : EReal) rfl

/-- Both programs end at the loss of the same three arguments. -/
theorem algebraic : Cert.algebraic_KernelIdeal_ReferenceIdeal := by
  intro m ρ m' ρ' _ hagree
  refine ⟨fun c => fun _ => Cert.CenterLoss.loss (Cert.KernelIdeal.Steps.X m c) (Cert.KernelIdeal.Steps.L m c) (Cert.KernelIdeal.Steps.C m c),
    Cert.KernelIdeal.Steps.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Mean.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
